-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x1024 : Shape := ⟨3, ![16, 256, 1024]⟩
abbrev S1024x128 : Shape := ⟨2, ![1024, 128]⟩
abbrev S_ : Shape := ⟨0, ![]⟩

class Facts : Prop where
  bcast_S_S16x256x1024 : S_.BroadcastsInDim S16x256x1024 (![] : Fin 0 → Fin S16x256x1024.rank)
  reducesTo_S16x256x1024_S_d0_1_2 : S16x256x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn {F : FTy → Type} [FloatOps F] (main_arg0 : FVec F S16x256x1024 .f32) (main_arg1 : FVec F S1024x128 .f32) : IVec S_ 1 :=
  let main_v0 : FVec F S16x256x1024 .f32 := Host.absf main_arg0
  let main_cst : FVec F S_ .f32 := constant S_ .f32 0x7F800000#32
  let main_v1 : FVec F S16x256x1024 .f32 := broadcastInDim S16x256x1024 ![] bcast_S_S16x256x1024 main_cst
  let main_v2 : IVec S16x256x1024 1 := cmpf .olt main_v0 main_v1
  let main_c : IVec S_ 1 := constantI S_ 1 1#1
  let main_v3 : IVec S_ 1 := (fun x v => Host.reduce IntOp.andi x v reducesTo_S16x256x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  main_v8
-- ==== Kernel.lean ====
abbrev S16x256x1024 : Shape := ⟨3, ![16, 256, 1024]⟩
abbrev S1024x128 : Shape := ⟨2, ![1024, 128]⟩
abbrev S16x256x256 : Shape := ⟨3, ![16, 256, 256]⟩
abbrev S1x256x1024 : Shape := ⟨3, ![1, 256, 1024]⟩
abbrev S1x256x256 : Shape := ⟨3, ![1, 256, 256]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S256x256 : Shape := ⟨2, ![256, 256]⟩
abbrev S1x256 : Shape := ⟨2, ![1, 256]⟩

abbrev nBuf : Space → Nat
  | .hbm => 3
  | .vmem => 5
  | .smem => 0
  | _ => 0

abbrev bufTy : (tb : Table) → Fin (tcTables nBuf tb) → BufTy
  | .hbm, ⟨0, _⟩ => ⟨S16x256x1024, .f32⟩
  | .hbm, ⟨1, _⟩ => ⟨S1024x128, .f32⟩
  | .hbm, ⟨2, _⟩ => ⟨S16x256x256, .f32⟩
  | .local _ .vmem, ⟨0, _⟩ => ⟨S1x256x1024, .f32⟩
  | .local _ .vmem, ⟨1, _⟩ => ⟨S1x256x1024, .f32⟩
  | .local _ .vmem, ⟨2, _⟩ => ⟨S1024x128, .f32⟩
  | .local _ .vmem, ⟨3, _⟩ => ⟨S1x256x256, .f32⟩
  | .local _ .vmem, ⟨4, _⟩ => ⟨S1x256x256, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  reduces_S256x128_S256 : S256x128.Reduces [1] S256
  shapeCasts_S256_S256x1 : S256.ShapeCasts S256x1
  transposes_S256x128_p1_0_S128x256 : S256x128.Transposes [1, 0] S128x256
  transposes_S256x1_p1_0_S1x256 : S256x1.Transposes [1, 0] S1x256
  broadcasts_S256x1_S256x256 : S256x1.Broadcasts S256x256
  broadcasts_S1x256_S256x256 : S1x256.Broadcasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S256x1024_S1024x128_S256x128_1_0_0_1_n_n_wf : DotDims.WF S256x1024 S1024x128 S256x128 [1] [0] [0] [1] [] []
  dot_S256x128_S128x256_S256x256_1_0_0_1_n_n_wf : DotDims.WF S256x128 S128x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x256x1024.size a
  hwx0_0 : ∀ i : grid0.Coords, EltTy.bits .f32 = 32 ∨ (Rect.block (s := S16x256x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S16x256x256.size a
  hwx0_2 : ∀ i : grid0.Coords, EltTy.bits .f32 = 32 ∨ (Rect.block (s := S16x256x256) S1x256x256.size (cc0_transform_2 i) (hinb0_2 i)).WholeWords (EltTy.packing .f32)

variable [Facts₀]

def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x1024 : Shape := ⟨3, ![16, 256, 1024]⟩
abbrev S1024x128 : Shape := ⟨2, ![1024, 128]⟩
abbrev S16x256x128 : Shape := ⟨3, ![16, 256, 128]⟩
abbrev S16x256x1x128 : Shape := ⟨4, ![16, 256, 1, 128]⟩
abbrev S16x1x256x128 : Shape := ⟨4, ![16, 1, 256, 128]⟩
abbrev S16x256x256x128 : Shape := ⟨4, ![16, 256, 256, 128]⟩
abbrev S_ : Shape := ⟨0, ![]⟩
abbrev S16x256x256 : Shape := ⟨3, ![16, 256, 256]⟩

abbrev nBuf : Space → Nat
  | .hbm => 11
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024x128, .f32⟩
  | .hbm, ⟨2, _⟩ => ⟨S16x256x128, .f32⟩
  | .hbm, ⟨3, _⟩ => ⟨S16x256x1x128, .f32⟩
  | .hbm, ⟨4, _⟩ => ⟨S16x1x256x128, .f32⟩
  | .hbm, ⟨5, _⟩ => ⟨S16x256x256x128, .f32⟩
  | .hbm, ⟨6, _⟩ => ⟨S16x256x256x128, .f32⟩
  | .hbm, ⟨7, _⟩ => ⟨S16x256x256x128, .f32⟩
  | .hbm, ⟨8, _⟩ => ⟨S16x256x256x128, .f32⟩
  | .hbm, ⟨9, _⟩ => ⟨S_, .f32⟩
  | .hbm, ⟨10, _⟩ => ⟨S16x256x256, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S16x256x128_S16x256x1x128_0_1_3 : S16x256x128.BroadcastsInDim S16x256x1x128 (![0, 1, 3] : Fin 3 → Fin S16x256x1x128.rank)
  bcast_S16x256x128_S16x1x256x128_0_2_3 : S16x256x128.BroadcastsInDim S16x1x256x128 (![0, 2, 3] : Fin 3 → Fin S16x1x256x128.rank)
  bcast_S16x256x1x128_S16x256x256x128_0_1_2_3 : S16x256x1x128.BroadcastsInDim S16x256x256x128 (![0, 1, 2, 3] : Fin 4 → Fin S16x256x256x128.rank)
  bcast_S16x1x256x128_S16x256x256x128_0_1_2_3 : S16x1x256x128.BroadcastsInDim S16x256x256x128 (![0, 1, 2, 3] : Fin 4 → Fin S16x256x256x128.rank)
  reducesTo_S16x256x256x128_S16x256x256_d3 : S16x256x256x128.ReducesTo [3] S16x256x256
  h_S_ : 0 < S_.numel
  dot_S16x256x1024_S1024x128_S16x256x128_2_0_01_1_n_n_wf : DotDims.WF S16x256x1024 S1024x128 S16x256x128 [2] [0] [0, 1] [1] [] []

variable [Facts₀]

def dot_S16x256x1024_S1024x128_S16x256x128_2_0_01_1_n_n : DotDims S16x256x1024 S1024x128 S16x256x128 where
  lhsContracting := [2]
  rhsContracting := [0]
  lhsNonContracting := [0, 1]
  rhsNonContracting := [1]
  lhsBatch := []
  rhsBatch := []
  wf := dot_S16x256x1024_S1024x128_S16x256x128_2_0_01_1_n_n_wf

class Facts : Prop extends Facts₀ where

variable [Facts]
-- ==== Proof.LibERealSums.lean ====
/-
  Finite sums of real numbers inside the extended reals. The inclusion of the reals into [−∞, +∞] carries a finite
  sum to the sum of the inclusions (by induction on the index set, from the two-term case), so a sum of products of
  included reals is the included sum of the real products.
-/
import Idealize.ShloMosaic.PureOps.Ideal

noncomputable section

namespace Cert.Attn

/-- The inclusion ℝ → [−∞, +∞] commutes with a finite sum. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ k, f k : ℝ) : EReal) = ∑ k, ((f k : ℝ) : EReal) := coe_sum _ _

/-- A sum of products of included reals is the included sum of the products. -/
theorem sum_coe_mul_coe {ι : Type} [Fintype ι] (f g : ι → ℝ) :
    ∑ k, ((f k : ℝ) : EReal) * ((g k : ℝ) : EReal) = ((∑ k, f k * g k : ℝ) : EReal) := by
  rw [coe_sum_univ]
  exact Finset.sum_congr rfl fun k _ => (EReal.coe_mul _ _).symm

/-- The maximum, from −∞, of finitely many included reals over a nonempty index set is an included real. -/
theorem fold_max_coe_exists {ι : Type} (s : Finset ι) (hs : s.Nonempty) (f : ι → ℝ) :
    ∃ ρ : ℝ, s.fold max (⊥ : EReal) (fun k => ((f k : ℝ) : EReal)) = (ρ : EReal) := by
  classical
  induction hs using Finset.Nonempty.cons_induction with
  | singleton a => exact ⟨f a, by simp⟩
  | cons a s ha hs ih =>
    obtain ⟨ρ, hρ⟩ := ih
    refine ⟨max (f a) ρ, ?_⟩
    rw [Finset.fold_cons, hρ]
    exact (EReal.coe_strictMono.monotone.map_max).symm

end Cert.Attn

end
-- ==== Proof.SquaredDistance.lean ====
/-
  Pairwise squared distances between projected rows.

  A batch item is a 256 × 1024 matrix X; it is projected through a 1024 × 128 matrix W to T = X · W, whose row s is
  the point t_s in 128 coordinates. The result holds, for every pair (p, q) of rows, the squared distance
  |t_p − t_q|² = Σ_r (T(p,r) − T(q,r))².

  Two ways of writing that number meet here. The DIRECT form is the sum of the squared coordinate differences. The
  EXPANDED form goes through the inner products ⟨t_p, t_q⟩ = Σ_r T(p,r) · T(q,r):
      max(⟨t_p, t_p⟩ + ⟨t_q, t_q⟩ − 2 · ⟨t_p, t_q⟩, 0).
  Over the real numbers (a − b)² = a² + b² − 2ab, summed over the coordinates, makes the bracket equal to the direct
  form; a sum of squares is not negative, so the maximum with 0 changes nothing. On the extended reals the expansion
  distributes a product over a difference, which fails at the infinities: the law is stated for families of REAL
  entries, and the projection of real arrays has real entries (a finite sum of products of reals).
-/
import Idealize.ShloMosaic.PureOps.Ideal.Laws
import Idealize.ShloMosaic.Lib.ValueIdx
import proofs.«170004_j2508260901508_1_alg».proof.Proof.LibERealSums

noncomputable section

open scoped BigOperators

namespace Cert.Pairwise

open Idealize.ShloMosaic Idealize.ShloMosaic.ValueIdx

/-! ## The two forms, for any family of points -/

/-- The inner product of points `p` and `q` of a family of `n` points in `d` coordinates. -/
def inner {n d : ℕ} (t : Fin n → Fin d → EReal) (p q : Fin n) : EReal := ∑ r : Fin d, t p r * t q r

/-- The squared distance of points `p` and `q` through inner products, clamped below at zero; the factor two and
    the zero are the float words that denote them. -/
def expanded {n d : ℕ} (t : Fin n → Fin d → EReal) (p q : Fin n) : EReal :=
  max ((inner t p p + inner t q q) - Ideal.ofBits .f32 0x40000000#32 * inner t p q) (Ideal.ofBits .f32 0x00000000#32)

/-- The squared distance of points `p` and `q` as the sum of the squared coordinate differences. -/
def direct {n d : ℕ} (t : Fin n → Fin d → EReal) (p q : Fin n) : EReal :=
  ∑ r : Fin d, (t p r - t q r) * (t p r - t q r)

/-- The float word of `2.0` denotes the real number two. -/
theorem ofBits_two : Ideal.ofBits .f32 0x40000000#32 = ((2 : ℝ) : EReal) := by
  simp [Ideal.ofBits, Ideal.ieee, -EReal.coe_mul]; norm_num

/-- The inclusion of the reals keeps a maximum. -/
theorem coe_max (a b : ℝ) : max (a : EReal) (b : EReal) = ((max a b : ℝ) : EReal) :=
  (EReal.coe_strictMono.monotone.map_max).symm

/-- Over the reals: |a|² + |b|² − 2⟨a, b⟩ = Σ (a_r − b_r)², coordinate by coordinate (a − b)² = a² + b² − 2ab. -/
theorem real_expansion {d : ℕ} (a b : Fin d → ℝ) :
    (∑ r, a r * a r + ∑ r, b r * b r) - 2 * ∑ r, a r * b r = ∑ r, (a r - b r) * (a r - b r) := by
  rw [Finset.mul_sum, ← Finset.sum_add_distrib, ← Finset.sum_sub_distrib]
  exact Finset.sum_congr rfl fun r _ => by ring

/-- THE LAW: for points with real coordinates the expanded form is the direct form. -/
theorem expanded_eq_direct {n d : ℕ} (t : Fin n → Fin d → EReal) (ht : ∀ p r, ∃ ρ : ℝ, t p r = (ρ : EReal))
    (p q : Fin n) : expanded t p q = direct t p q := by
  choose τ hτ using ht
  have e1 := Cert.Attn.sum_coe_mul_coe (τ p) (τ p)
  have e2 := Cert.Attn.sum_coe_mul_coe (τ q) (τ q)
  have e3 := Cert.Attn.sum_coe_mul_coe (τ p) (τ q)
  have e4 := Cert.Attn.sum_coe_mul_coe (fun r => τ p r - τ q r) (fun r => τ p r - τ q r)
  simp only [EReal.coe_sub] at e4
  unfold expanded direct inner
  simp only [hτ]
  rw [e1, e2, e3, e4, ofBits_two, Ideal.ofBits_zero_f32, ← EReal.coe_add, ← EReal.coe_mul, ← EReal.coe_sub,
    ← EReal.coe_zero, coe_max, real_expansion,
    max_eq_left (Finset.sum_nonneg fun r _ => mul_self_nonneg _)]

/-! ## The projection and the specification -/

/-- Batch item `b` projected: row `s`, coordinate `r` is Σ_k X(b, s, k) · W(k, r). -/
def proj (x : (⟨3, ![16, 256, 1024]⟩ : Shape).Idx → EReal) (w : (⟨2, ![1024, 128]⟩ : Shape).Idx → EReal) (b : Fin 16) :
    Fin 256 → Fin 128 → EReal :=
  fun s r => ∑ k : Fin 1024, x (ix3 b s k) * w (ix2 k r)

/-- The projection of arrays of real numbers has real entries. -/
theorem proj_real (x : (⟨3, ![16, 256, 1024]⟩ : Shape).Idx → EReal) (w : (⟨2, ![1024, 128]⟩ : Shape).Idx → EReal)
    (hx : ∀ i, ∃ ρ : ℝ, x i = (ρ : EReal)) (hw : ∀ i, ∃ ρ : ℝ, w i = (ρ : EReal)) (b : Fin 16) (s : Fin 256) (r : Fin 128) :
    ∃ ρ : ℝ, proj x w b s r = (ρ : EReal) := by
  choose ξ hξ using hx
  choose ω hω using hw
  refine ⟨∑ k : Fin 1024, ξ (ix3 b s k) * ω (ix2 k r), ?_⟩
  unfold proj
  simp only [hξ, hω]
  exact Cert.Attn.sum_coe_mul_coe _ _

/-- THE SPECIFICATION: entry (b, p, q) of the result is the squared distance, in the direct form, of rows `p` and `q`
    of batch item `b` projected. -/
def sqdist (x : (⟨3, ![16, 256, 1024]⟩ : Shape).Idx → EReal) (w : (⟨2, ![1024, 128]⟩ : Shape).Idx → EReal) :
    (⟨3, ![16, 256, 256]⟩ : Shape).Idx → EReal :=
  fun i => direct (proj x w (i 0)) (i 1) (i 2)

end Cert.Pairwise

end
-- ==== Proof.ReferenceDistance.lean ====
/-
  The reference computes the specification.

  The reference projects every batch item (one contraction over the 1024 input coordinates), spreads the projected
  rows along two different axes of a [16, 256, 256, 128] array — entry (b, p, q, r) of the first copy is T_b(p, r), of
  the second T_b(q, r) —, subtracts, squares, and sums over the last axis from zero. Read at an index (b, p, q) that
  is Σ_r (T_b(p,r) − T_b(q,r))², the squared distance in the direct form.
-/
import proofs.«170004_j2508260901508_1_alg».proof.Proof.Gen.ReferenceIdeal.Read
import proofs.«170004_j2508260901508_1_alg».proof.Proof.SquaredDistance

noncomputable section

open scoped BigOperators

namespace Cert.ReferenceIdeal.RefValue

open Cert.ReferenceIdeal Cert.ReferenceIdeal.Read Idealize.ShloMosaic Idealize.ShloMosaic.ValueIdx

/-- Through the first copy's two broadcasts, entry (b, p, q, r) reads the projection's row `p`: its left factor
    at contraction coordinate `k` is X(b, p, k). -/
theorem left_first (i : S16x256x256.Idx) (r : Fin 128) (k : Fin 1024) :
    lidx_main_v0 (idx_main_v1 (idx_main_v3 (idx_main_v7 i r))) k = ix3 (i 0) (i 1) k :=
  funext fun a => Fin.ext (by match a with | ⟨0, _⟩ => rfl | ⟨1, _⟩ => rfl | ⟨2, _⟩ => rfl)

/-- and its right factor is W(k, r). -/
theorem right_first (i : S16x256x256.Idx) (r : Fin 128) (k : Fin 1024) :
    ridx_main_v0 (idx_main_v1 (idx_main_v3 (idx_main_v7 i r))) k = ix2 k r :=
  funext fun a => Fin.ext (by match a with | ⟨0, _⟩ => rfl | ⟨1, _⟩ => rfl)

/-- Through the second copy's two broadcasts, entry (b, p, q, r) reads the projection's row `q`. -/
theorem left_second (i : S16x256x256.Idx) (r : Fin 128) (k : Fin 1024) :
    lidx_main_v0 (idx_main_v2 (idx_main_v4 (idx_main_v7 i r))) k = ix3 (i 0) (i 2) k :=
  funext fun a => Fin.ext (by match a with | ⟨0, _⟩ => rfl | ⟨1, _⟩ => rfl | ⟨2, _⟩ => rfl)

theorem right_second (i : S16x256x256.Idx) (r : Fin 128) (k : Fin 1024) :
    ridx_main_v0 (idx_main_v2 (idx_main_v4 (idx_main_v7 i r))) k = ix2 k r :=
  funext fun a => Fin.ext (by match a with | ⟨0, _⟩ => rfl | ⟨1, _⟩ => rfl)

/-- The reference's last stage is the specification, for any extended-real arrays. -/
theorem stage_eq_sqdist (x0 : (⟨S16x256x1024, .f32⟩ : BufTy).Contents (Elt Ideal)) (x1 : (⟨S1024x128, .f32⟩ : BufTy).Contents (Elt Ideal)) :
    val_main_v7 (F := Ideal) x0 x1 = Cert.Pairwise.sqdist x0 x1 := by
  funext i
  rw [val_main_v7_apply, val_main_cst_apply]
  show Ideal.ofBits .f32 0x00000000#32 + _ = _
  rw [Ideal.ofBits_zero_f32, zero_add]
  unfold Cert.Pairwise.sqdist Cert.Pairwise.direct Cert.Pairwise.proj
  refine Finset.sum_congr rfl fun r _ => ?_
  rw [val_main_v6_apply, val_main_v5_apply, val_main_v3_apply, val_main_v4_apply, val_main_v1_apply, val_main_v2_apply,
    val_main_v0_apply, val_main_v0_apply]
  simp only [Ideal.mulf_def, Ideal.subf_def, left_first, right_first, left_second, right_second]
  rfl

end Cert.ReferenceIdeal.RefValue

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BlockDistance.lean ====
/-
  One batch item's block of the result, entry by entry.

  At a grid point the body holds one batch item X (a [1, 256, 1024] block) and the whole projection matrix W. It
  forms T = X · W on the matrix unit (the narrowing of both operands to the 16-bit format is the identity on exact
  numbers), the squared norms N(p) = Σ_r T(p,r)² of T's rows as a lane sum, and the inner products
  C(p,q) = Σ_r T(p,r) · T(q,r) as a second product of T with its own transpose. The column of norms is spread along
  the rows, its transpose along the columns, and the stored entry (p, q) is max(N(p) + N(q) − 2 · C(p,q), 0): the
  squared distance of rows p and q of T in the expanded form.
-/
import proofs.«170004_j2508260901508_1_alg».proof.Proof.Gen.KernelIdeal.Skeleton
import Idealize.ShloMosaic.Lib.ValueLayout
import Idealize.ShloMosaic.Lib.Pipeline.Value
import proofs.«170004_j2508260901508_1_alg».proof.Proof.LibPlainMatmul
import proofs.«170004_j2508260901508_1_alg».proof.Proof.LibLaneSum
import proofs.«170004_j2508260901508_1_alg».proof.Proof.LibColumnCast
import proofs.«170004_j2508260901508_1_alg».proof.Proof.LibColumnBroadcast
import proofs.«170004_j2508260901508_1_alg».proof.Proof.SquaredDistance

noncomputable section

open scoped BigOperators

namespace Cert.KernelIdeal.BlockValue

open Cert.KernelIdeal Cert.KernelIdeal.Gen Idealize.ShloMosaic Idealize.ShloMosaic.ValueIdx

/-- The block's projection: row `s`, coordinate `r` of X · W, for the one batch item X the block holds. -/
def blockProj (v0 : Vec Ideal S1x256x1024 .f32) (v2 : Vec Ideal S1024x128 .f32) : Fin 256 → Fin 128 → EReal :=
  fun s r => ∑ k : Fin 1024, v0 (ix3 (0 : Fin 1) s k) * v2 (ix2 k r)

/-- The first product, read at (s, r): the block's leading unit axis dropped, both operands narrowed (the identity
    here), contracted over the 1024 input coordinates into zeros. -/
theorem projected_apply (v0 : Vec Ideal S1x256x1024 .f32) (v2 : Vec Ideal S1024x128 .f32) (s : Fin 256) (r : Fin 128) :
    matmul dot_S256x1024_S1024x128_S256x128_1_0_0_1_n_n none
        (truncf .bf16 (shapeCast S256x1024 v0 shapeCasts_S1x256x1024_S256x1024) bitsLt_bf16_f32)
        (truncf .bf16 v2 bitsLt_bf16_f32) (constant (F := Ideal) S256x128 .f32 0x00000000#32) (ix2 s r)
      = blockProj v0 v2 s r := by
  refine (matmul_plain_zero_apply _ none _ _ s r).trans ?_
  unfold blockProj
  refine Finset.sum_congr rfl fun k _ => ?_
  rw [truncf_apply, truncf_apply, shapeCast_1ab_ab_apply]

/-- The lane sum of a [256, 128] matrix from the zero word, read at row `i`: the sum of that row. -/
theorem rowSum_apply (S : FVec Ideal S256x128 .f32) (hφ : FKind.Formats FTy.f32)
    (hacc : (0x00000000#32 : BitVec 32) = 0x00000000#32) (i : Fin 256) :
    multiReduction .add [1] S256 S 0x00000000#32 reduces_S256x128_S256 hφ hacc (ix1 i) = ∑ c : Fin 128, S (ix2 i c) :=
  multiReduction_add_rows_apply S _ _ hφ hacc i

/-- The second product, of T (narrowed: the identity) with its own transpose into zeros, read at (p, q): the inner
    product of rows `p` and `q` of T. -/
theorem cross_apply (T : FVec Ideal S256x128 .f32) (p q : Fin 256) :
    matmul dot_S256x128_S128x256_S256x256_1_0_0_1_n_n none (truncf .bf16 T bitsLt_bf16_f32)
        (transpose S128x256 [1, 0] (truncf .bf16 T bitsLt_bf16_f32) transposes_S256x128_p1_0_S128x256)
        (constant (F := Ideal) S256x256 .f32 0x00000000#32) (ix2 p q)
      = ∑ c : Fin 128, T (ix2 p c) * T (ix2 q c) := by
  refine (matmul_plain_zero_apply _ none _ _ p q).trans ?_
  refine Finset.sum_congr rfl fun c _ => ?_
  rw [transpose_ix2_apply, truncf_apply, truncf_apply]

/-- THE BLOCK, entry (p, q): the expanded squared distance of rows `p` and `q` of the block's projection. -/
theorem payload_apply (v0 : Vec Ideal S1x256x1024 .f32) (v2 : Vec Ideal S1024x128 .f32) (u : Fin 1) (p q : Fin 256) :
    k0_pay1 (F := Ideal) v0 v2 (ix3 u p q) = Cert.Pairwise.expanded (blockProj v0 v2) p q := by
  have hT := projected_apply v0 v2
  unfold k0_pay1
  dsimp only
  generalize matmul dot_S256x1024_S1024x128_S256x128_1_0_0_1_n_n none
        (truncf .bf16 (shapeCast S256x1024 v0 shapeCasts_S1x256x1024_S256x1024) bitsLt_bf16_f32)
        (truncf .bf16 v2 bitsLt_bf16_f32) (constant (F := Ideal) S256x128 .f32 0x00000000#32) = T at hT ⊢
  rw [shapeCast_ab_1ab_apply, maximumf_apply, subf_apply, addf_apply, mulf_apply, broadcast_apply, broadcast_apply,
    broadcastTo_a1_ab_apply, broadcastTo_1b_ab_apply, transpose_ix2_apply, shapeCast_a_a1_apply, shapeCast_a_a1_apply,
    rowSum_apply, rowSum_apply, cross_apply]
  simp only [mulf_apply, hT]
  rfl

/-- THE BLOCK AGAINST THE SPECIFICATION, at one point, over variables: when the block `v0` holds batch item `b` of an
    array X of real numbers and `v2` holds a matrix W of real numbers, the body's entry (p, q) is the specification's
    entry (b, p, q) — the block's projection is item `b`'s, its entries are real, and there the expanded form is the
    direct form. -/
theorem block_eq_spec (X : (⟨3, ![16, 256, 1024]⟩ : Shape).Idx → EReal) (W : (⟨2, ![1024, 128]⟩ : Shape).Idx → EReal)
    (hX : ∀ i, ∃ ρ : ℝ, X i = (ρ : EReal)) (hW : ∀ i, ∃ ρ : ℝ, W i = (ρ : EReal))
    (v0 : Vec Ideal S1x256x1024 .f32) (v2 : Vec Ideal S1024x128 .f32) (b : Fin 16)
    (h0 : ∀ (s : Fin 256) (k : Fin 1024), v0 (ix3 (0 : Fin 1) s k) = X (ix3 b s k))
    (h2 : ∀ (k : Fin 1024) (r : Fin 128), v2 (ix2 k r) = W (ix2 k r))
    (u : Fin 1) (p q : Fin 256) :
    k0_pay1 (F := Ideal) v0 v2 (ix3 u p q) = Cert.Pairwise.sqdist X W (ix3 b p q) := by
  have hproj : blockProj v0 v2 = Cert.Pairwise.proj X W b := by
    funext s r
    unfold blockProj Cert.Pairwise.proj
    exact Finset.sum_congr rfl fun k _ => by rw [h0, h2]
  rw [payload_apply, hproj, Cert.Pairwise.expanded_eq_direct _ (Cert.Pairwise.proj_real X W hX hW b)]
  rfl

end Cert.KernelIdeal.BlockValue

end
-- ==== Proof.ArrayDistance.lean ====
/-
  From blocks to the whole result.

  The grid has sixteen points, one per batch item. Point t stages batch item t of the input (block index (t, 0, 0)
  of blocks of size [1, 256, 1024]), the whole projection matrix (its only block), and writes back block (t, 0, 0) of
  the result, of size [1, 256, 256]. So what point t writes back is block t of the specification — the body's entry
  (p, q) is the specification's entry (t, p, q) when the inputs hold real numbers —, every index (b, p, q) of the result
  lies in the block of point b, and the result array ends as the specification, whole.
-/
import proofs.«170004_j2508260901508_1_alg».proof.Proof.Gen.KernelIdeal.Value
import proofs.«170004_j2508260901508_1_alg».proof.Proof.BlockDistance

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The three index maps, decided over the sixteen points: the input's and the result's blocks are numbered by the
    point along the batch axis, the matrix has one block. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- WHAT POINT `t` WRITES BACK is block `t` of the specification of the arrays as the region finds them, when they
    hold real numbers. -/
theorem flushed_eq (c : Dev nD) (hx : ∀ i, ∃ ρ : ℝ, V m c main_arg0 i = (ρ : EReal))
    (hw : ∀ i, ∃ ρ : ℝ, V m c main_arg1 i = (ρ : EReal)) (t : Fin cfg0.N) :
    (dats m 0 c).flushed 2 t
      = ((cfg0.win 2).blk t).view.read (Elt Ideal) (Cert.Pairwise.sqdist (V m c main_arg0) (V m c main_arg1)) := by
  rw [Cert.KernelIdeal.Value.flushed2]
  unfold out0_2
  rw [View.canon_unit_zero zeros3]
  simp only [View.ld_unit_zero (S := S1x256x1024) zeros3, View.ld_unit_zero (S := S1024x128) zeros2]
  obtain ⟨a0, a1, a2, b0, b1, o0, o1, o2⟩ := index_facts t
  have hb : t.val < 16 := t.isLt
  funext j
  obtain ⟨u, p, q, rfl⟩ : ∃ (u : Fin 1) (p q : Fin 256), j = ix3 u p q := ⟨j 0, j 1, j 2, eq_ix3 j⟩
  have hu : u.val = 0 := by omega
  show k0_pay1 (iblk m c 0 t) (iblk m c 1 t) (ix3 u p q)
    = Cert.Pairwise.sqdist (V m c main_arg0) (V m c main_arg1) (((cfg0.win 2).blk t).view.emb (ix3 u p q))
  refine (Cert.KernelIdeal.BlockValue.block_eq_spec (V m c main_arg0) (V m c main_arg1) hx hw (iblk m c 0 t) (iblk m c 1 t)
    ⟨t.val, hb⟩ ?_ ?_ u p q).trans ?_
  · intro s k
    show V m c main_arg0 (((cfg0.win 0).blk t).view.emb (ix3 (0 : Fin 1) s k)) = V m c main_arg0 (ix3 ⟨t.val, hb⟩ s k)
    refine congrArg _ (funext fun a => Fin.ext ?_)
    match a with
    | ⟨0, _⟩ => show win0_0.index t (0 : Fin 3) * 1 + 1 * 0 = t.val; omega
    | ⟨1, _⟩ => show win0_0.index t (1 : Fin 3) * 256 + 1 * s.val = s.val; omega
    | ⟨2, _⟩ => show win0_0.index t (2 : Fin 3) * 1024 + 1 * k.val = k.val; omega
  · intro k r
    show V m c main_arg1 (((cfg0.win 1).blk t).view.emb (ix2 k r)) = V m c main_arg1 (ix2 k r)
    refine congrArg _ (funext fun a => Fin.ext ?_)
    match a with
    | ⟨0, _⟩ => show win0_1.index t (0 : Fin 2) * 1024 + 1 * k.val = k.val; omega
    | ⟨1, _⟩ => show win0_1.index t (1 : Fin 2) * 128 + 1 * r.val = r.val; omega
  · refine congrArg _ (funext fun a => Fin.ext ?_)
    match a with
    | ⟨0, _⟩ => show t.val = win0_2.index t (0 : Fin 3) * 1 + 1 * u.val; omega
    | ⟨1, _⟩ => show p.val = win0_2.index t (1 : Fin 3) * 256 + 1 * p.val; omega
    | ⟨2, _⟩ => show q.val = win0_2.index t (2 : Fin 3) * 256 + 1 * q.val; omega

/-- An index of the result is in point `t`'s block iff each coordinate is in the block's range on its axis. -/
theorem mem_block (t : Fin cfg0.N) (i : S16x256x256.Idx) :
    i ∈ ((cfg0.win 2).blk t).view.set ↔ ∀ a : Fin 3, win0_2.index t a * S1x256x256.size a ≤ (i a).val
      ∧ (i a).val < win0_2.index t a * S1x256x256.size a + S1x256x256.size a := by
  show i ∈ ((View.whole main_v0).slice (win0_2.rect t)).set ↔ _
  rw [View.set_slice_whole, Rect.mem_set_unit]
  exact Iff.rfl

/-- THE COVER: index (b, p, q) of the result lies in the block of point `b`, which writes back. -/
theorem covered (i : S16x256x256.Idx) :
    ∃ t : Fin cfg0.N, (cfg0.win 2).flush t = true ∧ i ∈ ((cfg0.win 2).blk t).view.set := by
  have hi0 : (i 0).val < 16 := (i 0).isLt
  have hi1 : (i 1).val < 256 := (i 1).isLt
  have hi2 : (i 2).val < 256 := (i 2).isLt
  obtain ⟨t, ht⟩ : ∃ t : Fin cfg0.N, t.val = (i 0).val := ⟨⟨(i 0).val, hi0⟩, rfl⟩
  obtain ⟨-, -, -, -, -, o0, o1, o2⟩ := index_facts t
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 256 ≤ (i 2).val ∧ (i 2).val < win0_2.index t (2 : Fin 3) * 256 + 256; omega

/-- THE RESULT ARRAY after the run is the specification of the arrays as the region finds them. -/
theorem final (c : Dev nD) (hx : ∀ i, ∃ ρ : ℝ, V m c main_arg0 i = (ρ : EReal))
    (hw : ∀ i, ∃ ρ : ℝ, V m c main_arg1 i = (ρ : EReal)) :
    (dats m 0 c).arrAt 2 cfg0.N = Cert.Pairwise.sqdist (V m c main_arg0) (V m c main_arg1) :=
  (dats m 0 c).arrAt_eq_of_cover 2 _ (fun t _ => flushed_eq m c hx hw t) covered

/-- THE RUN: from a memory whose two argument arrays hold real numbers on every device, every weakly fair execution
    terminates with the result array at the specification of the arguments, the arguments unchanged. -/
theorem run (hreal : ∀ c : Dev nD, (∀ i, ∃ ρ : ℝ, m ((c : Thread nD τ).loc main_arg0) i = (ρ : EReal))
      ∧ (∀ i, ∃ ρ : ℝ, m ((c : Thread nD τ).loc main_arg1) i = (ρ : EReal))) :
    θ_run defs (onTc (τ := τ) (main (F := Ideal))) ⟨m, fun _ => 0, ρ⟩ fun r => ∀ c : Dev nD,
      r.2.mem ((c : Thread nD τ).loc main_v0)
          = Cert.Pairwise.sqdist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hreal c).1 (hreal c).2), (h c).2⟩)
    (Cert.KernelIdeal.Value.run_blocks m ρ)

end Cert.KernelIdeal.ArrayValue

end
-- ==== Proof.LibFiniteEntry.lean ====
/-
  "|x| < +∞" on the extended reals means x is a real number.

  A precondition of the form "every entry is finite" compares max(x, −x) with the float word of +∞ (0x7F800000, which
  denotes ⊤). At x = ⊥ and at x = ⊤ that maximum is ⊤, and ⊤ < ⊤ fails; so where the comparison's bit is 1, x is the
  image of a real number.
-/
import Idealize.ShloMosaic.PureOps.Ideal

namespace Idealize.ShloMosaic.Ideal

/-- An extended real whose absolute value is below the float word of +∞ is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

end Idealize.ShloMosaic.Ideal
-- ==== Proof.FiniteInputs.lean ====
/-
  The precondition, read: every entry of both inputs is a real number.

  The precondition takes, for each input array, the conjunction over ALL its entries of |x| < +∞, and the conjunction
  of the two results; it holds when that one bit is 1. A conjunction that is 1 had only 1s, so every entry's comparison
  bit is 1; and an extended real whose absolute value max(x, −x) lies strictly below +∞ is neither infinity: it is the
  image of a real number.
-/
import proofs.«170004_j2508260901508_1_alg».proof.Proof.Gen.Pre_finite_inputs
import Idealize.ShloMosaic.Lib.ReduceAll
import Idealize.ShloMosaic.Lib.ValueIdx
import Idealize.ShloMosaic.PureOps.Ideal
import proofs.«170004_j2508260901508_1_alg».proof.Proof.LibFiniteEntry

noncomputable section

namespace Cert.Pre_finite_inputs.Reals

open Cert.Pre_finite_inputs Idealize.ShloMosaic Idealize.ShloMosaic.ValueIdx

/-- The scalar shape has one index. -/
instance : Subsingleton S_.Idx := ⟨fun a b => funext fun d => d.elim0⟩

/-- Where the precondition holds of two extended-real arrays, every entry of each is a real number. -/
theorem reals_of_pre (x0 : FVec Ideal S16x256x1024 .f32) (x1 : FVec Ideal S1024x128 .f32)
    (h : fn (F := Ideal) x0 x1 = fun _ => 1#1) :
    (∀ i, ∃ ρ : ℝ, x0 i = (ρ : EReal)) ∧ (∀ i, ∃ ρ : ℝ, x1 i = (ρ : EReal)) := by
  have h0 := congrFun h ix0
  dsimp only [fn] at h0
  obtain ⟨ha, hb⟩ := IntOp.andi_eq_one.1 h0
  refine ⟨fun i => ?_, fun i => ?_⟩
  · exact Ideal.real_of_abs_lt_inf (x0 i) (Host.reduce_andi_all _ _ _ _ _ ha i)
  · exact Ideal.real_of_abs_lt_inf (x1 i) (Host.reduce_andi_all _ _ _ _ _ hb i)

end Cert.Pre_finite_inputs.Reals

end
-- ==== Proof.lean ====
/-
  Pairwise squared distances of projected rows: the kernel against its reference, over the extended reals.

  Both programs take a batch of sixteen 256 × 1024 matrices X_b and one 1024 × 128 matrix W, project every batch item
  to T_b = X_b · W, and return, for every batch item and every pair (p, q) of its 256 projected rows, the squared
  distance of the two rows.

  The reference forms all coordinate differences T_b(p,r) − T_b(q,r) in a [16, 256, 256, 128] array, squares them and
  sums over r: the DIRECT form Σ_r (T_b(p,r) − T_b(q,r))². The kernel, one batch item per grid point, takes the squared
  norms of T_b's rows and the matrix of their inner products T_b · T_bᵀ, and stores
  max(|t_p|² + |t_q|² − 2⟨t_p, t_q⟩, 0): the EXPANDED form, clamped below at zero. On exact numbers the kernel's
  narrowing of the matrix unit's operands to a 16-bit format is the identity, and its two constants, 2.0 and 0.0, are
  exactly two and zero.

  The two forms agree over the real numbers — (a − b)² = a² + b² − 2ab coordinate by coordinate, and a sum of squares is
  not negative, so the clamp does nothing — but not at the infinities of the extended reals, where a product does not
  distribute over a difference. The precondition says every input entry is finite, that is, a real number; then every
  projected entry is a real number (a finite sum of products of reals) and the law applies. This is the one place the
  precondition is used.

  The parts: SquaredDistance (the two forms, the law, the projection, the specification), ReferenceDistance (the
  reference's last stage is the specification, for any arrays), BlockDistance (one grid point's block of the kernel's
  result, entry by entry, is the expanded form of the block's projection, hence the specification's block for real
  inputs), ArrayDistance (the sixteen blocks tile the result, so the kernel's result array is the specification),
  FiniteInputs (the precondition gives real entries). The three frames are the generated runs; the kernel's
  idealization rewrote no operation, so there is nothing to preserve.
-/
import proofs.«170004_j2508260901508_1_alg».proof.Defs
import proofs.«170004_j2508260901508_1_alg».proof.Proof.Gen.Kernel
import proofs.«170004_j2508260901508_1_alg».proof.Proof.Gen.Kernel.Frame
import proofs.«170004_j2508260901508_1_alg».proof.Proof.Gen.KernelIdeal
import proofs.«170004_j2508260901508_1_alg».proof.Proof.Gen.KernelIdeal.Frame
import proofs.«170004_j2508260901508_1_alg».proof.Proof.Gen.KernelIdeal.Value
import proofs.«170004_j2508260901508_1_alg».proof.Proof.Gen.ReferenceIdeal
import proofs.«170004_j2508260901508_1_alg».proof.Proof.Gen.ReferenceIdeal.Run
import proofs.«170004_j2508260901508_1_alg».proof.Proof.Gen.ReferenceIdeal.Read
import proofs.«170004_j2508260901508_1_alg».proof.Proof.Gen.Pre_finite_inputs
import proofs.«170004_j2508260901508_1_alg».proof.Proof.SquaredDistance
import proofs.«170004_j2508260901508_1_alg».proof.Proof.ReferenceDistance
import proofs.«170004_j2508260901508_1_alg».proof.Proof.BlockDistance
import proofs.«170004_j2508260901508_1_alg».proof.Proof.ArrayDistance
import proofs.«170004_j2508260901508_1_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, with every argument entry finite: the kernel's result array ends at the
    specification of its arguments (the expanded form, equal to the direct form on real entries), the reference's at
    the specification of its own (the direct form), and the arguments are the same arrays. -/
theorem algebraic : Cert.algebraic_KernelIdeal_ReferenceIdeal := by
  intro m ρ m' ρ' hpre hagree
  have hreal : ∀ c : Dev Cert.KernelIdeal.nD,
      (∀ i, ∃ r : ℝ, m ((c : Thread Cert.KernelIdeal.nD Cert.KernelIdeal.τ).loc Cert.KernelIdeal.main_arg0) i = (r : EReal))
      ∧ (∀ i, ∃ r : ℝ, m ((c : Thread Cert.KernelIdeal.nD Cert.KernelIdeal.τ).loc Cert.KernelIdeal.main_arg1) i = (r : EReal)) :=
    fun c => Cert.Pre_finite_inputs.Reals.reals_of_pre _ _ (hpre c)
  refine ⟨_, Cert.KernelIdeal.ArrayValue.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.stage_eq_sqdist, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
